-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x4096 : Shape := ⟨2, ![1024, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S2048x1024 .f32) (main_arg1 : FVec F S1024x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  reduces_S1024x1024_S1024 : S1024x1024.Reduces [1] S1024
  shapeCasts_S1024_S1024x1 : S1024.ShapeCasts S1024x1
  reduces_S1024x2048_S2048 : S1024x2048.Reduces [0] S2048
  shapeCasts_S2048_S1x2048 : S2048.ShapeCasts S1x2048
  broadcasts_S1024x1_S1024x2048 : S1024x1.Broadcasts S1024x2048
  broadcasts_S1x2048_S1024x2048 : S1x2048.Broadcasts S1024x2048
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .f32 = 32 ∨ (Rect.block (s := S2048x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x4096.size a
  hwx0_1 : ∀ i : grid0.Coords, EltTy.bits .f32 = 32 ∨ (Rect.block (s := S1024x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S2048x4096.size a
  hwx0_2 : ∀ i : grid0.Coords, EltTy.bits .f32 = 32 ∨ (Rect.block (s := S2048x4096) S1024x2048.size (cc0_transform_2 i) (hinb0_2 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S4096 : Shape := ⟨1, ![4096]⟩
abbrev S1x4096 : Shape := ⟨2, ![1, 4096]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S1024x4096, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  reducesTo_S1024x4096_S4096_d0 : S1024x4096.ReducesTo [0] S4096
  bcast_S4096_S1x4096_1 : S4096.BroadcastsInDim S1x4096 (![1] : Fin 1 → Fin S1x4096.rank)
  bcast_S_S2048x4096 : S_.BroadcastsInDim S2048x4096 (![] : Fin 0 → Fin S2048x4096.rank)
  bcast_S2048x1_S2048x4096_0_1 : S2048x1.BroadcastsInDim S2048x4096 (![0, 1] : Fin 2 → Fin S2048x4096.rank)
  bcast_S1x4096_S2048x4096_0_1 : S1x4096.BroadcastsInDim S2048x4096 (![0, 1] : Fin 2 → Fin S2048x4096.rank)
  dot_S2048x1024_S1024x4096_S2048x4096_1_0_0_1_n_n_wf : DotDims.WF S2048x1024 S1024x4096 S2048x4096 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf

class Facts : Prop extends Facts₀ where

variable [Facts]
-- ==== Proof.Score.lean ====
/-
  The quantity both programs compute. For a matrix `x` with `M` rows and `K` columns and a matrix `w` with `K` rows
  and `N` columns, the entry at row `r` and column `c` is

      -½ · ( ( Σₖ x[r,k]²  −  2 · Σₖ x[r,k] · w[k,c] )  +  Σₖ w[k,c]² ),

  the expanded form of `-½ · ‖x[r,·] − w[·,c]‖²`, with the three sums over the shared axis `k` taken on the extended
  reals and the two scalars `-½` and `2` kept as the values of their float words. The three sums are kept apart and
  combined in exactly this grouping (first the difference, then the sum), so no law of the extended reals beyond the
  meaning of each sum is needed to recognise the term in either program.
-/
import Idealize.ShloMosaic.PureOps.Ideal
import Idealize.ShloMosaic.Lib.ValueIdx

noncomputable section

namespace Cert.EuclidFC

open Idealize.ShloMosaic Idealize.ShloMosaic.ValueIdx

/-- The entry at `(r, c)`: minus one half of (the squared length of row `r` of `x`, minus twice the inner product of
    that row with column `c` of `w`, plus the squared length of that column). -/
def score {M K N : ℕ} (x : (⟨2, ![M, K]⟩ : Shape).Idx → EReal) (w : (⟨2, ![K, N]⟩ : Shape).Idx → EReal)
    (r : Fin M) (c : Fin N) : EReal :=
  Ideal.ofBits .f32 0xBF000000#32 *
    (((∑ k : Fin K, x (ix2 r k) * x (ix2 r k))
        - Ideal.ofBits .f32 0x40000000#32 * ∑ k : Fin K, x (ix2 r k) * w (ix2 k c))
      + ∑ k : Fin K, w (ix2 k c) * w (ix2 k c))

/-- All the entries, as an `M × N` array. -/
def scores {M K N : ℕ} (x : (⟨2, ![M, K]⟩ : Shape).Idx → EReal) (w : (⟨2, ![K, N]⟩ : Shape).Idx → EReal) :
    (⟨2, ![M, N]⟩ : Shape).Idx → EReal :=
  fun i => score x w (i 0) (i 1)

/-- An entry depends only on one row of `x` and one column of `w`: if row `r` of `x` is row `r'` of `x'` and column
    `c` of `w` is column `c'` of `w'`, the two entries agree. (This is what lets a tile of the result be computed
    from a band of rows of `x` and a band of columns of `w`.) -/
theorem score_congr {M N M' N' K : ℕ}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (r : Fin M) (c : Fin N) (r' : Fin M') (c' : Fin N')
    (hx : ∀ k : Fin K, x (ix2 r k) = x' (ix2 r' k)) (hw : ∀ k : Fin K, w (ix2 k c) = w' (ix2 k c')) :
    score x w r c = score x' w' r' c' := by
  unfold score
  simp only [hx, hw]

end Cert.EuclidFC

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.BlockScore.lean ====
/-
  What the kernel body stores, entry by entry. The body loads a band of 1024 rows of the left matrix (all 1024
  columns) and a band of 2048 columns of the right matrix (all 1024 rows), and stores a 1024 × 2048 tile whose entry at
  `(p, q)` is `score` of the two bands at `(p, q)`:
    • the row sums of squares are a lane reduction of the squared left band over its second axis, kept as a column
      `[1024, 1]` and broadcast along the columns;
    • the column sums of squares are a reduction of the squared right band over its first axis, kept as a row
      `[1, 2048]` and broadcast along the rows;
    • the middle term is the matrix product of the two bands into a zero accumulator — on the extended reals the
      narrowing of the factors to a shorter float format before the product is the identity, and `0 + s = s`.
  The body combines the three exactly as `score` does.
-/
import proofs.«161605_j60078002536974_2_alg».proof.Proof.Gen.KernelIdeal.Skeleton
import proofs.«161605_j60078002536974_2_alg».proof.Proof.Score
import proofs.«161605_j60078002536974_2_alg».proof.Proof.LibKeepdims
import Idealize.ShloMosaic.PureOps.Ideal.Laws
import Idealize.ShloMosaic.Lib.ValueLayout
import Idealize.ShloMosaic.Lib.ValueIdx

noncomputable section

namespace Cert.EuclidFC.Block

open Cert.KernelIdeal Cert.KernelIdeal.Gen Idealize.ShloMosaic Idealize.ShloMosaic.ValueIdx Cert.LibKeepdims

/-- The contraction of the tile's matrix product: the left band's second axis against the right band's first. -/
abbrev D : DotDims S1024x1024 S1024x2048 S1024x2048 := dot_S1024x1024_S1024x2048_S1024x2048_1_0_0_1_n_n

/-! ## The three parts of the stored tile, named as the body forms them -/

/-- The left band's row sums of squares, broadcast over the tile. -/
def rowSq (x0 : FVec Ideal S1024x1024 .f32) : FVec Ideal S1024x2048 .f32 :=
  broadcastTo S1024x2048
    (shapeCast S1024x1 (multiReduction .add [1] S1024 (mulf x0 x0) 0x00000000#32 reduces_S1024x1024_S1024 (.inl rfl) rfl)
      shapeCasts_S1024_S1024x1)
    broadcasts_S1024x1_S1024x2048

/-- The right band's column sums of squares, broadcast over the tile. -/
def colSq (x1 : FVec Ideal S1024x2048 .f32) : FVec Ideal S1024x2048 .f32 :=
  broadcastTo S1024x2048
    (shapeCast S1x2048 (multiReduction .add [0] S2048 (mulf x1 x1) 0x00000000#32 reduces_S1024x2048_S2048 (.inl rfl) rfl)
      shapeCasts_S2048_S1x2048)
    broadcasts_S1x2048_S1024x2048

/-- The product of the two bands, accumulated from zero. -/
def prod (x0 : FVec Ideal S1024x1024 .f32) (x1 : FVec Ideal S1024x2048 .f32) : FVec Ideal S1024x2048 .f32 :=
  matmul D none (truncf .bf16 x0 bitsLt_bf16_f32) (truncf .bf16 x1 bitsLt_bf16_f32) (constant S1024x2048 .f32 0x00000000#32)

/-- The stored tile is `-½ · ((rowSq − 2 · prod) + colSq)`, entrywise: the body's operations in their order. -/
theorem pay_eq (x0 : FVec Ideal S1024x1024 .f32) (x1 : FVec Ideal S1024x2048 .f32) :
    k0_pay1 (F := Ideal) x0 x1
      = mulf (broadcast S1024x2048 (Scalar.ofBits .f32 0xBF000000#32))
          (addf (subf (rowSq x0) (mulf (broadcast S1024x2048 (Scalar.ofBits .f32 0x40000000#32)) (prod x0 x1))) (colSq x1)) := rfl

/-! ## Each part at an entry -/

/-- A sum over the second axis of a `[1024, 1024]` array, at row `p`: the sum of that row. -/
theorem sumAxis1_apply (v : FVec Ideal S1024x1024 .f32) (hφ : FKind.Formats .f32)
    (hacc : (0x00000000#32 : BitVec 32) = FKind.add.neutral .f32 hφ) (p : Fin 1024) :
    multiReduction .add [1] S1024 v 0x00000000#32 reduces_S1024x1024_S1024 hφ hacc (ix1 p) = ∑ k : Fin 1024, v (ix2 p k) :=
  (Ideal.multiReduction_add_single v 0x00000000#32 reduces_S1024x1024_S1024 hφ hacc (ix1 p)).trans
    (Finset.sum_congr rfl fun k _ => congrArg v (funext fun a => Fin.ext (by match a with | ⟨0, _⟩ => rfl | ⟨1, _⟩ => rfl)))

/-- A sum over the first axis of a `[1024, 2048]` array, at column `q`: the sum of that column. -/
theorem sumAxis0_apply (v : FVec Ideal S1024x2048 .f32) (hφ : FKind.Formats .f32)
    (hacc : (0x00000000#32 : BitVec 32) = FKind.add.neutral .f32 hφ) (q : Fin 2048) :
    multiReduction .add [0] S2048 v 0x00000000#32 reduces_S1024x2048_S2048 hφ hacc (ix1 q) = ∑ k : Fin 1024, v (ix2 k q) :=
  (Ideal.multiReduction_add_single v 0x00000000#32 reduces_S1024x2048_S2048 hφ hacc (ix1 q)).trans
    (Finset.sum_congr rfl fun k _ => congrArg v (funext fun a => Fin.ext (by match a with | ⟨0, _⟩ => rfl | ⟨1, _⟩ => rfl)))

theorem rowSq_apply (x0 : FVec Ideal S1024x1024 .f32) (p : Fin 1024) (q : Fin 2048) :
    rowSq x0 (ix2 p q) = ∑ k : Fin 1024, x0 (ix2 p k) * x0 (ix2 p k) := by
  unfold rowSq
  refine (broadcastTo_a1_ab_apply _ broadcasts_S1024x1_S1024x2048 p q).trans ?_
  refine (shapeCast_a_a1_apply _ shapeCasts_S1024_S1024x1 p 0).trans ?_
  exact (sumAxis1_apply (mulf x0 x0) _ _ p).trans (Finset.sum_congr rfl fun k _ => rfl)

theorem colSq_apply (x1 : FVec Ideal S1024x2048 .f32) (p : Fin 1024) (q : Fin 2048) :
    colSq x1 (ix2 p q) = ∑ k : Fin 1024, x1 (ix2 k q) * x1 (ix2 k q) := by
  unfold colSq
  refine (broadcastTo_1b_ab_apply _ broadcasts_S1x2048_S1024x2048 p q).trans ?_
  refine (shapeCast_a_1a_apply _ shapeCasts_S2048_S1x2048 0 q).trans ?_
  exact (sumAxis0_apply (mulf x1 x1) _ _ q).trans (Finset.sum_congr rfl fun k _ => rfl)

/-- The product's left factor for the tile entry `i` and contraction index `κ` sits in row `i 0` of the left band, -/
theorem lhs_row (i : S1024x2048.Idx) (κ : D.contr.Idx) : (D.lhsIdx i κ 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl

/-- and its right factor in column `i 1` of the right band. -/
theorem rhs_col (i : S1024x2048.Idx) (κ : D.contr.Idx) : (D.rhsIdx i κ 1).val = (i 1).val := by
  unfold DotDims.rhsIdx
  rw [dif_neg (show ¬(1 : Fin S1024x2048.rank) ∈ D.rhsBatch by decide), dif_pos (show (1 : Fin S1024x2048.rank) ∈ D.rhsNonContracting by decide)]
  rfl

theorem prod_apply (x0 : FVec Ideal S1024x1024 .f32) (x1 : FVec Ideal S1024x2048 .f32) (p : Fin 1024) (q : Fin 2048) :
    prod x0 x1 (ix2 p q) = ∑ k : Fin 1024, x0 (ix2 p k) * x1 (ix2 k q) := by
  unfold prod
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 1024 rfl rfl).symm k) = ix2 k q := funext fun a => Fin.ext (by
    match a with
    | ⟨0, _⟩ => exact (D.rhsIdx_val_of_single rfl _ _).trans hk
    | ⟨1, _⟩ => exact rhs_col _ _)
  rw [el, er]
  rfl

/-! ## The stored tile at an entry -/

/-- The tile the body stores, at `(p, q)`, is `score` of the two loaded bands there. -/
theorem pay_apply (x0 : FVec Ideal S1024x1024 .f32) (x1 : FVec Ideal S1024x2048 .f32) (p : Fin 1024) (q : Fin 2048) :
    k0_pay1 (F := Ideal) x0 x1 (ix2 p q) = score x0 x1 p q := by
  rw [pay_eq]
  show Ideal.ofBits .f32 0xBF000000#32
      * ((rowSq x0 (ix2 p q) - Ideal.ofBits .f32 0x40000000#32 * prod x0 x1 (ix2 p q)) + colSq x1 (ix2 p q)) = _
  rw [rowSq_apply, prod_apply, colSq_apply]
  rfl

end Cert.EuclidFC.Block

end
-- ==== Proof.KernelScore.lean ====
/-
  The kernel's result array is `scores` of its two arguments. The grid has 2 × 2 points; point `(i, j)` stages row band
  `i` of the left matrix (1024 rows, every column), column band `j` of the right matrix (2048 columns, every row), and
  writes tile `(i, j)` of the result (1024 × 2048). An entry of `scores` depends only on one row of the left matrix and
  one column of the right one, so the tile the body stores from the two bands is the matching tile of `scores` of the
  whole matrices; the four tiles partition the 2048 × 4096 result, so the whole array ends at `scores`.
-/
import proofs.«161605_j60078002536974_2_alg».proof.Proof.Gen.KernelIdeal.Value
import proofs.«161605_j60078002536974_2_alg».proof.Proof.BlockScore
import Idealize.ShloMosaic.Lib.Pipeline.Value
import Idealize.ShloMosaic.Lib.ValueIdx

noncomputable section

namespace Cert.EuclidFC.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses start at the origin of each staged block. -/
theorem origin : (![0, 0] : Fin 2 → Nat) = fun _ => 0 := funext fun a => by fin_cases a <;> rfl

/-- The three index maps over the four grid points: the left matrix's band has the tile's block row and block column
    `0`; the right matrix's band has block row `0` and the tile's block column; both tile coordinates are `0` or `1`. -/
theorem bands : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 1 ∧ win0_2.index t (1 : Fin 2) ≤ 1 :=
  (by decide +kernel : ∀ t : Fin grid0.N, _)

/-- Every one of the 2 × 2 tiles is some grid point's. -/
theorem tiles_onto : ∀ (q0 : Fin 2) (q1 : Fin 2), ∃ t : Fin cfg0.N, win0_2.index t = ![q0.val, q1.val] :=
  (by decide +kernel : ∀ (q0 : Fin 2) (q1 : Fin 2), ∃ t : Fin grid0.N, win0_2.index t = ![q0.val, q1.val])

/-- What grid point `t` writes back is tile `t` of `scores` of the argument arrays. -/
theorem flushed_eq (c : Dev nD) (t : Fin cfg0.N) :
    (dats m 0 c).flushed 2 t
      = ((cfg0.win 2).blk t).view.read (Elt Ideal)
          (scores (M := 2048) (K := 1024) (N := 4096) (m ((c : Thread nD τ).loc main_arg0)) (m ((c : Thread nD τ).loc main_arg1))) := by
  rw [Cert.KernelIdeal.Value.flushed2]
  unfold out0_2
  rw [View.canon_unit_zero origin]
  simp only [View.ld_unit_zero (S := S1024x1024) origin, View.ld_unit_zero (S := S1024x2048) origin]
  obtain ⟨e0, e1, e2, e3, e4, e5⟩ := bands t
  funext j
  obtain ⟨p, q, rfl⟩ : ∃ (p : Fin 1024) (q : Fin 2048), j = ix2 p q := ⟨j 0, j 1, eq_ix2 j⟩
  show k0_pay1 (F := Ideal) (iblk m c 0 t) (iblk m c 1 t) (ix2 p q)
      = score (M := 2048) (K := 1024) (N := 4096) (m ((c : Thread nD τ).loc main_arg0)) (m ((c : Thread nD τ).loc main_arg1))
          ((((cfg0.win 2).blk t).view.emb (ix2 p q)) 0) ((((cfg0.win 2).blk t).view.emb (ix2 p q)) 1)
  refine (Block.pay_apply (iblk m c 0 t) (iblk m c 1 t) p q).trans ?_
  refine score_congr (M := 1024) (N := 2048) (M' := 2048) (N' := 4096) (K := 1024) (iblk m c 0 t) (iblk m c 1 t)
    (m ((c : Thread nD τ).loc main_arg0)) (m ((c : Thread nD τ).loc main_arg1)) p q _ _ (fun k => ?_) (fun k => ?_)
  · show m ((c : Thread nD τ).loc main_arg0) (((cfg0.win 0).blk t).view.emb (ix2 p k))
        = m ((c : Thread nD τ).loc main_arg0) (ix2 ((((cfg0.win 2).blk t).view.emb (ix2 p q)) 0) k)
    refine congrArg (m ((c : Thread nD τ).loc main_arg0)) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  · show m ((c : Thread nD τ).loc main_arg1) (((cfg0.win 1).blk t).view.emb (ix2 k q))
        = m ((c : Thread nD τ).loc main_arg1) (ix2 k ((((cfg0.win 2).blk t).view.emb (ix2 p q)) 1))
    refine congrArg (m ((c : Thread nD τ).loc main_arg1)) (funext fun a => Fin.ext ?_)
    match a with
    | ⟨0, _⟩ => show win0_1.index t (0 : Fin 2) * 1024 + 1 * k.val = k.val; omega
    | ⟨1, _⟩ => show win0_1.index t (1 : Fin 2) * 2048 + 1 * q.val = win0_2.index t (1 : Fin 2) * 2048 + 1 * q.val; omega

/-- An index of the result lies in point `t`'s tile iff each coordinate lies in the tile's range on its axis. -/
theorem mem_tile (t : Fin cfg0.N) (i : S2048x4096.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- The tiles cover the result: entry `(r, c)` lies in tile `(r / 1024, c / 2048)`. -/
theorem covered (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  obtain ⟨t, ht⟩ := tiles_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- The result array after the run is `scores` of the argument arrays. -/
theorem final (c : Dev nD) :
    (dats m 0 c).arrAt 2 cfg0.N
      = scores (M := 2048) (K := 1024) (N := 4096) (m ((c : Thread nD τ).loc main_arg0)) (m ((c : Thread nD τ).loc main_arg1)) :=
  (dats m 0 c).arrAt_eq_of_cover 2 _ (fun t _ => flushed_eq m c t) covered

/-- The kernel's run, read: the result at `scores` of the arguments, the arguments unchanged. -/
theorem run : θ_run defs (onTc (τ := τ) (main (F := Ideal))) ⟨m, fun _ => 0, ρ⟩ fun r => ∀ c : Dev nD,
      r.2.mem ((c : Thread nD τ).loc main_v0)
        = scores (M := 2048) (K := 1024) (N := 4096) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.EuclidFC.Kernel

end
-- ==== Proof.RefScore.lean ====
/-
  The reference program computes `scores`. Read one operation at a time, its result at `(r, c)` is
  `-½ · (((0 + Σₖ x[r,k]·x[r,k]) − 2 · Σₖ x[r,k]·w[k,c]) + (0 + Σₖ w[k,c]·w[k,c]))`: the two sums of squares are host
  reductions started from the zero word, kept as a column and a row and broadcast back over the result; the middle
  sum is the host's matrix product. The zero word is the extended real `0`, and `0 + s = s`.
-/
import proofs.«161605_j60078002536974_2_alg».proof.Proof.Gen.ReferenceIdeal.Read
import proofs.«161605_j60078002536974_2_alg».proof.Proof.Score

noncomputable section

namespace Cert.EuclidFC.Ref

open Cert.ReferenceIdeal Cert.ReferenceIdeal.Read Idealize.ShloMosaic Idealize.ShloMosaic.ValueIdx

/-- Where the broadcast column of row sums reads the squared left matrix: result index `(r, c)`, summand `k` ↦ `(r, k)`. -/
theorem rowIdx (i : S2048x4096.Idx) (k : Fin 1024) : idx_main_v1 (idx_main_v2 (idx_main_v9 i)) k = ix2 (i 0) k :=
  funext fun a => Fin.ext (by match a with | ⟨0, _⟩ => rfl | ⟨1, _⟩ => rfl)

/-- Where the broadcast row of column sums reads the squared right matrix: `(r, c)`, `k` ↦ `(k, c)`. -/
theorem colIdx (i : S2048x4096.Idx) (k : Fin 1024) : idx_main_v4 (idx_main_v5 (idx_main_v11 i)) k = ix2 k (i 1) :=
  funext fun a => Fin.ext (by match a with | ⟨0, _⟩ => rfl | ⟨1, _⟩ => rfl)

/-- The matrix product's left factor at `(r, c)`, `k` is at `(r, k)`, -/
theorem lhsIdx (i : S2048x4096.Idx) (k : Fin 1024) : lidx_main_v6 i k = ix2 (i 0) k :=
  funext fun a => Fin.ext (by match a with | ⟨0, _⟩ => rfl | ⟨1, _⟩ => rfl)

/-- and its right factor at `(k, c)`. -/
theorem rhsIdx (i : S2048x4096.Idx) (k : Fin 1024) : ridx_main_v6 i k = ix2 k (i 1) :=
  funext fun a => Fin.ext (by match a with | ⟨0, _⟩ => rfl | ⟨1, _⟩ => rfl)

/-- The reference's last stage is `scores` of the two arguments. -/
theorem result_eq (x0 : S2048x1024.Idx → EReal) (x1 : S1024x4096.Idx → EReal) :
    val_main_v14 (F := Ideal) x0 x1 = scores x0 x1 := by
  funext i
  simp only [val_main_v14_apply, val_main_v13_apply, val_main_cst_2_apply, val_main_v12_apply, val_main_v10_apply,
    val_main_v9_apply, val_main_v2_apply, val_main_v1_apply, val_main_cst_apply, val_main_v0_apply,
    val_main_v8_apply, val_main_v7_apply, val_main_cst_1_apply, val_main_v6_apply,
    val_main_v11_apply, val_main_v5_apply, val_main_v4_apply, val_main_cst_0_apply, val_main_v3_apply,
    rowIdx, colIdx, lhsIdx, rhsIdx,
    Ideal.mulf_def, Ideal.addf_def, Ideal.subf_def, Ideal.ofBits_def, Ideal.ofBits_zero_f32, zero_add]
  rfl

end Cert.EuclidFC.Ref

end
-- ==== Proof.lean ====
/-
  Negative half squared distances between the rows of `x` (2048 × 1024) and the columns of `W` (1024 × 4096), in the
  expanded form

      out[r, c] = -½ · ( ( Σₖ x[r,k]²  −  2 · Σₖ x[r,k] · W[k,c] )  +  Σₖ W[k,c]² ),

  computed by a tiled kernel and by a whole-array reference. Over the extended reals the two programs are the same
  function of the arguments, entry by entry (`Cert.EuclidFC.scores`, Proof/Score.lean):

    • the kernel (Proof/BlockScore.lean, Proof/KernelScore.lean) runs over a 2 × 2 grid; at point `(i, j)` it forms, from
      row band `i` of `x` and column band `j` of `W`, the band's row sums of squares, the band's column sums of squares and
      the product of the two bands (its factors narrowed to a shorter float format first, which changes nothing on
      the extended reals; accumulated from zero), combines them as above and writes tile `(i, j)` of the result. An
      entry of `scores` needs one row of `x` and one column of `W` only, so each tile is the matching tile of `scores`
      of the whole matrices, and the four tiles partition the result;
    • the reference (Proof/RefScore.lean) forms the same three sums for the whole matrices — its two sums of squares
      start from a zero word, and `0 + s = s` — and combines them in the same order with the same two scalar words.

  Both sides group the three sums identically, so no rearrangement on the extended reals is involved and the
  finiteness of the inputs is not used. The ideal pass rewrote nothing in the kernel, so the idealization is the
  kernel's own text read over the extended reals. The three frames are the generated frame runs (the reference's is
  its generated run with the result dropped).
-/
import proofs.«161605_j60078002536974_2_alg».proof.Defs
import proofs.«161605_j60078002536974_2_alg».proof.Proof.Gen.Kernel
import proofs.«161605_j60078002536974_2_alg».proof.Proof.Gen.Kernel.Skeleton
import proofs.«161605_j60078002536974_2_alg».proof.Proof.Gen.Kernel.Launch
import proofs.«161605_j60078002536974_2_alg».proof.Proof.Gen.Kernel.Points
import proofs.«161605_j60078002536974_2_alg».proof.Proof.Gen.Kernel.Frame
import proofs.«161605_j60078002536974_2_alg».proof.Proof.Gen.KernelIdeal
import proofs.«161605_j60078002536974_2_alg».proof.Proof.Gen.KernelIdeal.Skeleton
import proofs.«161605_j60078002536974_2_alg».proof.Proof.Gen.KernelIdeal.Launch
import proofs.«161605_j60078002536974_2_alg».proof.Proof.Gen.KernelIdeal.Points
import proofs.«161605_j60078002536974_2_alg».proof.Proof.Gen.KernelIdeal.Frame
import proofs.«161605_j60078002536974_2_alg».proof.Proof.Gen.ReferenceIdeal
import proofs.«161605_j60078002536974_2_alg».proof.Proof.Gen.Pre_finite_inputs
import proofs.«161605_j60078002536974_2_alg».proof.Proof.Gen.KernelIdeal.Value
import proofs.«161605_j60078002536974_2_alg».proof.Proof.Gen.ReferenceIdeal.Run
import proofs.«161605_j60078002536974_2_alg».proof.Proof.Gen.ReferenceIdeal.Read
import proofs.«161605_j60078002536974_2_alg».proof.Proof.KernelScore
import proofs.«161605_j60078002536974_2_alg».proof.Proof.RefScore
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on `x` and `W`, both programs end with the result array at `scores x W`. -/
theorem algebraic : Cert.algebraic_KernelIdeal_ReferenceIdeal := by
  intro m ρ m' ρ' _ hagree
  refine ⟨fun c => Cert.EuclidFC.scores (M := 2048) (K := 1024) (N := 4096)
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.EuclidFC.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.EuclidFC.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
